-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S512x512 : Shape := ⟨2, ![512, 512]⟩
abbrev S512x10 : Shape := ⟨2, ![512, 10]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512x10 : S_.BroadcastsInDim S512x10 (![] : Fin 0 → Fin S512x10.rank)
  reducesTo_S512x10_S_d0_1 : S512x10.ReducesTo [0, 1] S_

variable [Facts]

def fn_part2 {F : FTy → Type} [FloatOps F] (main_arg7 : FVec F S512x10 .f32) (main_arg8 : FVec F S512x10 .f32) (main_arg9 : FVec F S512x10 .f32) (main_v33 : IVec S_ 1) : IVec S_ 1 :=
  let main_v34 : FVec F S512x10 .f32 := Host.absf main_arg7
  let main_cst_12 : FVec F S_ .f32 := constant S_ .f32 0x7F800000#32
  let main_v35 : FVec F S512x10 .f32 := broadcastInDim S512x10 ![] bcast_S_S512x10 main_cst_12
  let main_v36 : IVec S512x10 1 := cmpf .olt main_v34 main_v35
  let main_c_13 : IVec S_ 1 := constantI S_ 1 1#1
  let main_v37 : IVec S_ 1 := (fun x v => Host.reduce IntOp.andi x v reducesTo_S512x10_S_d0_1 h_S_) main_v36 main_c_13
  let main_v38 : IVec S_ 1 := andi main_v33 main_v37
  let main_v39 : FVec F S512x10 .f32 := Host.absf main_arg8
  let main_cst_14 : FVec F S_ .f32 := constant S_ .f32 0x7F800000#32
  let main_v40 : FVec F S512x10 .f32 := broadcastInDim S512x10 ![] bcast_S_S512x10 main_cst_14
  let main_v41 : IVec S512x10 1 := cmpf .olt main_v39 main_v40
  let main_c_15 : IVec S_ 1 := constantI S_ 1 1#1
  let main_v42 : IVec S_ 1 := (fun x v => Host.reduce IntOp.andi x v reducesTo_S512x10_S_d0_1 h_S_) main_v41 main_c_15
  let main_v43 : IVec S_ 1 := andi main_v38 main_v42
  let main_v44 : FVec F S512x10 .f32 := Host.absf main_arg9
  let main_cst_16 : FVec F S_ .f32 := constant S_ .f32 0x7F800000#32
  let main_v45 : FVec F S512x10 .f32 := broadcastInDim S512x10 ![] bcast_S_S512x10 main_cst_16
  let main_v46 : IVec S512x10 1 := cmpf .olt main_v44 main_v45
  let main_c_17 : IVec S_ 1 := constantI S_ 1 1#1
  let main_v47 : IVec S_ 1 := (fun x v => Host.reduce IntOp.andi x v reducesTo_S512x10_S_d0_1 h_S_) main_v46 main_c_17
  let main_v48 : IVec S_ 1 := andi main_v43 main_v47
  main_v48

def fn_part1 {F : FTy → Type} [FloatOps F] (main_arg4 : FVec F S512x512 .f32) (main_arg5 : FVec F S512x512 .f32) (main_arg6 : FVec F S512x512 .f32) (main_arg7 : FVec F S512x10 .f32) (main_arg8 : FVec F S512x10 .f32) (main_arg9 : FVec F S512x10 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_v33

def fn {F : FTy → Type} [FloatOps F] (main_arg0 : FVec F S65536x512 .f32) (main_arg1 : FVec F S512x512 .f32) (main_arg2 : FVec F S512x512 .f32) (main_arg3 : FVec F S512x512 .f32) (main_arg4 : FVec F S512x512 .f32) (main_arg5 : FVec F S512x512 .f32) (main_arg6 : FVec F S512x512 .f32) (main_arg7 : FVec F S512x10 .f32) (main_arg8 : FVec F S512x10 .f32) (main_arg9 : FVec F S512x10 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_v13 main_v16
-- ==== Kernel.lean ====
abbrev S65536x512 : Shape := ⟨2, ![65536, 512]⟩
abbrev S512x512 : Shape := ⟨2, ![512, 512]⟩
abbrev S512x10 : Shape := ⟨2, ![512, 10]⟩
abbrev S_ : Shape := ⟨0, ![]⟩
abbrev S65536x10 : Shape := ⟨2, ![65536, 10]⟩
abbrev S4096x512 : Shape := ⟨2, ![4096, 512]⟩
abbrev S4096x10 : Shape := ⟨2, ![4096, 10]⟩

abbrev nBuf : Space → Nat
  | .hbm => 141
  | .vmem => 7
  | .smem => 0
  | _ => 0

abbrev hbmTy0_0 (i : Nat) : BufTy := match i % 128 with
  | 0 => ⟨S65536x512, .f32⟩
  | 1 => ⟨S512x512, .f32⟩
  | 2 => ⟨S512x512, .f32⟩
  | 3 => ⟨S512x512, .f32⟩
  | 4 => ⟨S512x512, .f32⟩
  | 5 => ⟨S512x512, .f32⟩
  | 6 => ⟨S512x512, .f32⟩
  | 7 => ⟨S512x10, .f32⟩
  | 8 => ⟨S512x10, .f32⟩
  | 9 => ⟨S512x10, .f32⟩
  | 10 => ⟨S_, .f32⟩
  | 11 => ⟨S512x512, .f32⟩
  | 12 => ⟨S512x512, .f32⟩
  | 13 => ⟨S512x512, .f32⟩
  | 14 => ⟨S512x512, .f32⟩
  | 15 => ⟨S512x512, .i1⟩
  | 16 => ⟨S512x512, .f32⟩
  | 17 => ⟨S512x512, .f32⟩
  | 18 => ⟨S512x512, .f32⟩
  | 19 => ⟨S512x512, .f32⟩
  | 20 => ⟨S512x512, .f32⟩
  | 21 => ⟨S512x512, .f32⟩
  | 22 => ⟨S512x512, .f32⟩
  | 23 => ⟨S512x512, .f32⟩
  | 24 => ⟨S_, .f32⟩
  | 25 => ⟨S512x512, .f32⟩
  | 26 => ⟨S512x512, .f32⟩
  | 27 => ⟨S512x512, .f32⟩
  | 28 => ⟨S512x512, .f32⟩
  | 29 => ⟨S512x512, .f32⟩
  | 30 => ⟨S_, .f32⟩
  | 31 => ⟨S512x512, .f32⟩
  | 32 => ⟨S512x512, .f32⟩
  | 33 => ⟨S512x512, .f32⟩
  | 34 => ⟨S512x512, .f32⟩
  | 35 => ⟨S512x512, .f32⟩
  | 36 => ⟨S_, .f32⟩
  | 37 => ⟨S512x512, .f32⟩
  | 38 => ⟨S512x512, .f32⟩
  | 39 => ⟨S512x512, .f32⟩
  | 40 => ⟨S_, .f32⟩
  | 41 => ⟨S_, .f32⟩
  | 42 => ⟨S512x512, .f32⟩
  | 43 => ⟨S_, .f32⟩
  | 44 => ⟨S512x512, .f32⟩
  | 45 => ⟨S512x512, .f32⟩
  | 46 => ⟨S_, .f32⟩
  | 47 => ⟨S512x512, .f32⟩
  | 48 => ⟨S512x512, .f32⟩
  | 49 => ⟨S_, .f32⟩
  | 50 => ⟨S_, .f32⟩
  | 51 => ⟨S_, .f32⟩
  | 52 => ⟨S512x512, .f32⟩
  | 53 => ⟨S512x512, .f32⟩
  | 54 => ⟨S512x512, .f32⟩
  | 55 => ⟨S512x512, .f32⟩
  | 56 => ⟨S512x512, .i1⟩
  | 57 => ⟨S512x512, .f32⟩
  | 58 => ⟨S512x512, .f32⟩
  | 59 => ⟨S512x512, .f32⟩
  | 60 => ⟨S512x512, .f32⟩
  | 61 => ⟨S512x512, .f32⟩
  | 62 => ⟨S512x512, .f32⟩
  | 63 => ⟨S512x512, .f32⟩
  | 64 => ⟨S512x512, .f32⟩
  | 65 => ⟨S_, .f32⟩
  | 66 => ⟨S512x512, .f32⟩
  | 67 => ⟨S512x512, .f32⟩
  | 68 => ⟨S512x512, .f32⟩
  | 69 => ⟨S512x512, .f32⟩
  | 70 => ⟨S512x512, .f32⟩
  | 71 => ⟨S_, .f32⟩
  | 72 => ⟨S512x512, .f32⟩
  | 73 => ⟨S512x512, .f32⟩
  | 74 => ⟨S512x512, .f32⟩
  | 75 => ⟨S512x512, .f32⟩
  | 76 => ⟨S512x512, .f32⟩
  | 77 => ⟨S_, .f32⟩
  | 78 => ⟨S512x512, .f32⟩
  | 79 => ⟨S512x512, .f32⟩
  | 80 => ⟨S512x512, .f32⟩
  | 81 => ⟨S_, .f32⟩
  | 82 => ⟨S_, .f32⟩
  | 83 => ⟨S512x512, .f32⟩
  | 84 => ⟨S_, .f32⟩
  | 85 => ⟨S512x512, .f32⟩
  | 86 => ⟨S512x512, .f32⟩
  | 87 => ⟨S_, .f32⟩
  | 88 => ⟨S512x512, .f32⟩
  | 89 => ⟨S512x512, .f32⟩
  | 90 => ⟨S_, .f32⟩
  | 91 => ⟨S_, .f32⟩
  | 92 => ⟨S_, .f32⟩
  | 93 => ⟨S512x10, .f32⟩
  | 94 => ⟨S512x10, .f32⟩
  | 95 => ⟨S512x10, .f32⟩
  | 96 => ⟨S512x10, .f32⟩
  | 97 => ⟨S512x10, .i1⟩
  | 98 => ⟨S512x10, .f32⟩
  | 99 => ⟨S512x10, .f32⟩
  | 100 => ⟨S512x10, .f32⟩
  | 101 => ⟨S512x10, .f32⟩
  | 102 => ⟨S512x10, .f32⟩
  | 103 => ⟨S512x10, .f32⟩
  | 104 => ⟨S512x10, .f32⟩
  | 105 => ⟨S512x10, .f32⟩
  | 106 => ⟨S_, .f32⟩
  | 107 => ⟨S512x10, .f32⟩
  | 108 => ⟨S512x10, .f32⟩
  | 109 => ⟨S512x10, .f32⟩
  | 110 => ⟨S512x10, .f32⟩
  | 111 => ⟨S512x10, .f32⟩
  | 112 => ⟨S_, .f32⟩
  | 113 => ⟨S512x10, .f32⟩
  | 114 => ⟨S512x10, .f32⟩
  | 115 => ⟨S512x10, .f32⟩
  | 116 => ⟨S512x10, .f32⟩
  | 117 => ⟨S512x10, .f32⟩
  | 118 => ⟨S_, .f32⟩
  | 119 => ⟨S512x10, .f32⟩
  | 120 => ⟨S512x10, .f32⟩
  | 121 => ⟨S512x10, .f32⟩
  | 122 => ⟨S_, .f32⟩
  | 123 => ⟨S_, .f32⟩
  | 124 => ⟨S512x10, .f32⟩
  | 125 => ⟨S_, .f32⟩
  | 126 => ⟨S512x10, .f32⟩
  | 127 => ⟨S512x10, .f32⟩
  | _ => ⟨S65536x512, .f32⟩

abbrev hbmTy0_1 (i : Nat) : BufTy := match i % 128 with
  | 0 => ⟨S_, .f32⟩
  | 1 => ⟨S512x10, .f32⟩
  | 2 => ⟨S512x10, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S512x512, .bf16⟩
  | 10 => ⟨S512x512, .bf16⟩
  | 11 => ⟨S512x10, .bf16⟩
  | 12 => ⟨S65536x10, .f32⟩
  | _ => ⟨S65536x512, .f32⟩

abbrev hbmTy (i : Nat) : BufTy := match i / 128 with
  | 0 => hbmTy0_0 i
  | 1 => hbmTy0_1 i
  | _ => ⟨S65536x512, .f32⟩

abbrev bufTy : (tb : Table) → Fin (tcTables nBuf tb) → BufTy
  | .hbm, ⟨i, _⟩ => hbmTy i
  | .local _ .vmem, ⟨0, _⟩ => ⟨S4096x512, .f32⟩
  | .local _ .vmem, ⟨1, _⟩ => ⟨S4096x512, .f32⟩
  | .local _ .vmem, ⟨2, _⟩ => ⟨S512x512, .bf16⟩
  | .local _ .vmem, ⟨3, _⟩ => ⟨S512x512, .bf16⟩
  | .local _ .vmem, ⟨4, _⟩ => ⟨S512x10, .bf16⟩
  | .local _ .vmem, ⟨5, _⟩ => ⟨S4096x10, .f32⟩
  | .local _ .vmem, ⟨6, _⟩ => ⟨S4096x10, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_call0_cst : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_v8 : Ref sig .tc := ⟨.hbm, 19, rfl⟩
abbrev main_call0_call0_v9 : Ref sig .tc := ⟨.hbm, 20, rfl⟩
abbrev main_call0_call0_v10 : Ref sig .tc := ⟨.hbm, 21, rfl⟩
abbrev main_call0_call0_v11 : Ref sig .tc := ⟨.hbm, 22, rfl⟩
abbrev main_call0_v0 : Ref sig .tc := ⟨.hbm, 23, rfl⟩
abbrev main_call0_cst : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_cst_0 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_cst_1 : Ref sig .tc := ⟨.hbm, 36, rfl⟩
abbrev main_call0_v11 : Ref sig .tc := ⟨.hbm, 37, rfl⟩
abbrev main_call0_v12 : Ref sig .tc := ⟨.hbm, 38, rfl⟩
abbrev main_call0_v13 : Ref sig .tc := ⟨.hbm, 39, rfl⟩
abbrev main_call0_cst_2 : Ref sig .tc := ⟨.hbm, 40, rfl⟩
abbrev main_call0_v14 : Ref sig .tc := ⟨.hbm, 41, rfl⟩
abbrev main_call0_v15 : Ref sig .tc := ⟨.hbm, 42, rfl⟩
abbrev main_call0_cst_3 : Ref sig .tc := ⟨.hbm, 43, rfl⟩
abbrev main_call0_v16 : Ref sig .tc := ⟨.hbm, 44, rfl⟩
abbrev main_call0_v17 : Ref sig .tc := ⟨.hbm, 45, rfl⟩
abbrev main_call0_cst_4 : Ref sig .tc := ⟨.hbm, 46, rfl⟩
abbrev main_call0_v18 : Ref sig .tc := ⟨.hbm, 47, rfl⟩
abbrev main_call0_v19 : Ref sig .tc := ⟨.hbm, 48, rfl⟩
abbrev main_call0_cst_5 : Ref sig .tc := ⟨.hbm, 49, rfl⟩
abbrev main_call0_v20 : Ref sig .tc := ⟨.hbm, 50, rfl⟩
abbrev main_call0_call1_cst : Ref sig .tc := ⟨.hbm, 51, rfl⟩
abbrev main_call0_call1_v0 : Ref sig .tc := ⟨.hbm, 52, rfl⟩
abbrev main_call0_call1_v1 : Ref sig .tc := ⟨.hbm, 53, rfl⟩
abbrev main_call0_call1_v2 : Ref sig .tc := ⟨.hbm, 54, rfl⟩
abbrev main_call0_call1_v3 : Ref sig .tc := ⟨.hbm, 55, rfl⟩
abbrev main_call0_call1_v4 : Ref sig .tc := ⟨.hbm, 56, rfl⟩
abbrev main_call0_call1_v5 : Ref sig .tc := ⟨.hbm, 57, rfl⟩
abbrev main_call0_call1_v6 : Ref sig .tc := ⟨.hbm, 58, rfl⟩
abbrev main_call0_call1_v7 : Ref sig .tc := ⟨.hbm, 59, rfl⟩
abbrev main_call0_call1_v8 : Ref sig .tc := ⟨.hbm, 60, rfl⟩
abbrev main_call0_call1_v9 : Ref sig .tc := ⟨.hbm, 61, rfl⟩
abbrev main_call0_call1_v10 : Ref sig .tc := ⟨.hbm, 62, rfl⟩
abbrev main_call0_call1_v11 : Ref sig .tc := ⟨.hbm, 63, rfl⟩
abbrev main_call0_v21 : Ref sig .tc := ⟨.hbm, 64, rfl⟩
abbrev main_call0_cst_6 : Ref sig .tc := ⟨.hbm, 65, rfl⟩
abbrev main_call0_v22 : Ref sig .tc := ⟨.hbm, 66, rfl⟩
abbrev main_call0_v23 : Ref sig .tc := ⟨.hbm, 67, rfl⟩
abbrev main_call0_v24 : Ref sig .tc := ⟨.hbm, 68, rfl⟩
abbrev main_call0_v25 : Ref sig .tc := ⟨.hbm, 69, rfl⟩
abbrev main_call0_v26 : Ref sig .tc := ⟨.hbm, 70, rfl⟩
abbrev main_call0_cst_7 : Ref sig .tc := ⟨.hbm, 71, rfl⟩
abbrev main_call0_v27 : Ref sig .tc := ⟨.hbm, 72, rfl⟩
abbrev main_call0_v28 : Ref sig .tc := ⟨.hbm, 73, rfl⟩
abbrev main_call0_v29 : Ref sig .tc := ⟨.hbm, 74, rfl⟩
abbrev main_call0_v30 : Ref sig .tc := ⟨.hbm, 75, rfl⟩
abbrev main_call0_v31 : Ref sig .tc := ⟨.hbm, 76, rfl⟩
abbrev main_call0_cst_8 : Ref sig .tc := ⟨.hbm, 77, rfl⟩
abbrev main_call0_v32 : Ref sig .tc := ⟨.hbm, 78, rfl⟩
abbrev main_call0_v33 : Ref sig .tc := ⟨.hbm, 79, rfl⟩
abbrev main_call0_v34 : Ref sig .tc := ⟨.hbm, 80, rfl⟩
abbrev main_call0_cst_9 : Ref sig .tc := ⟨.hbm, 81, rfl⟩
abbrev main_call0_v35 : Ref sig .tc := ⟨.hbm, 82, rfl⟩
abbrev main_call0_v36 : Ref sig .tc := ⟨.hbm, 83, rfl⟩
abbrev main_call0_cst_10 : Ref sig .tc := ⟨.hbm, 84, rfl⟩
abbrev main_call0_v37 : Ref sig .tc := ⟨.hbm, 85, rfl⟩
abbrev main_call0_v38 : Ref sig .tc := ⟨.hbm, 86, rfl⟩
abbrev main_call0_cst_11 : Ref sig .tc := ⟨.hbm, 87, rfl⟩
abbrev main_call0_v39 : Ref sig .tc := ⟨.hbm, 88, rfl⟩
abbrev main_call0_v40 : Ref sig .tc := ⟨.hbm, 89, rfl⟩
abbrev main_call0_cst_12 : Ref sig .tc := ⟨.hbm, 90, rfl⟩
abbrev main_call0_v41 : Ref sig .tc := ⟨.hbm, 91, rfl⟩
abbrev main_call0_call2_cst : Ref sig .tc := ⟨.hbm, 92, rfl⟩
abbrev main_call0_call2_v0 : Ref sig .tc := ⟨.hbm, 93, rfl⟩
abbrev main_call0_call2_v1 : Ref sig .tc := ⟨.hbm, 94, rfl⟩
abbrev main_call0_call2_v2 : Ref sig .tc := ⟨.hbm, 95, rfl⟩
abbrev main_call0_call2_v3 : Ref sig .tc := ⟨.hbm, 96, rfl⟩
abbrev main_call0_call2_v4 : Ref sig .tc := ⟨.hbm, 97, rfl⟩
abbrev main_call0_call2_v5 : Ref sig .tc := ⟨.hbm, 98, rfl⟩
abbrev main_call0_call2_v6 : Ref sig .tc := ⟨.hbm, 99, rfl⟩
abbrev main_call0_call2_v7 : Ref sig .tc := ⟨.hbm, 100, rfl⟩
abbrev main_call0_call2_v8 : Ref sig .tc := ⟨.hbm, 101, rfl⟩
abbrev main_call0_call2_v9 : Ref sig .tc := ⟨.hbm, 102, rfl⟩
abbrev main_call0_call2_v10 : Ref sig .tc := ⟨.hbm, 103, rfl⟩
abbrev main_call0_call2_v11 : Ref sig .tc := ⟨.hbm, 104, rfl⟩
abbrev main_call0_v42 : Ref sig .tc := ⟨.hbm, 105, rfl⟩
abbrev main_call0_cst_13 : Ref sig .tc := ⟨.hbm, 106, rfl⟩
abbrev main_call0_v43 : Ref sig .tc := ⟨.hbm, 107, rfl⟩
abbrev main_call0_v44 : Ref sig .tc := ⟨.hbm, 108, rfl⟩
abbrev main_call0_v45 : Ref sig .tc := ⟨.hbm, 109, rfl⟩
abbrev main_call0_v46 : Ref sig .tc := ⟨.hbm, 110, rfl⟩
abbrev main_call0_v47 : Ref sig .tc := ⟨.hbm, 111, rfl⟩
abbrev main_call0_cst_14 : Ref sig .tc := ⟨.hbm, 112, rfl⟩
abbrev main_call0_v48 : Ref sig .tc := ⟨.hbm, 113, rfl⟩
abbrev main_call0_v49 : Ref sig .tc := ⟨.hbm, 114, rfl⟩
abbrev main_call0_v50 : Ref sig .tc := ⟨.hbm, 115, rfl⟩
abbrev main_call0_v51 : Ref sig .tc := ⟨.hbm, 116, rfl⟩
abbrev main_call0_v52 : Ref sig .tc := ⟨.hbm, 117, rfl⟩
abbrev main_call0_cst_15 : Ref sig .tc := ⟨.hbm, 118, rfl⟩
abbrev main_call0_v53 : Ref sig .tc := ⟨.hbm, 119, rfl⟩
abbrev main_call0_v54 : Ref sig .tc := ⟨.hbm, 120, rfl⟩
abbrev main_call0_v55 : Ref sig .tc := ⟨.hbm, 121, rfl⟩
abbrev main_call0_cst_16 : Ref sig .tc := ⟨.hbm, 122, rfl⟩
abbrev main_call0_v56 : Ref sig .tc := ⟨.hbm, 123, rfl⟩
abbrev main_call0_v57 : Ref sig .tc := ⟨.hbm, 124, rfl⟩
abbrev main_call0_cst_17 : Ref sig .tc := ⟨.hbm, 125, rfl⟩
abbrev main_call0_v58 : Ref sig .tc := ⟨.hbm, 126, rfl⟩
abbrev main_call0_v59 : Ref sig .tc := ⟨.hbm, 127, rfl⟩
abbrev main_call0_cst_18 : Ref sig .tc := ⟨.hbm, 128, rfl⟩
abbrev main_call0_v60 : Ref sig .tc := ⟨.hbm, 129, rfl⟩
abbrev main_call0_v61 : Ref sig .tc := ⟨.hbm, 130, rfl⟩
abbrev main_call0_cst_19 : Ref sig .tc := ⟨.hbm, 131, rfl⟩
abbrev main_call0_v62 : Ref sig .tc := ⟨.hbm, 132, rfl⟩
abbrev main_call0_v63 : Ref sig .tc := ⟨.hbm, 133, rfl⟩
abbrev main_v0_1 : Ref sig .tc := ⟨.hbm, 134, rfl⟩
abbrev main_call0_v65 : Ref sig .tc := ⟨.hbm, 135, rfl⟩
abbrev main_v0_2 : Ref sig .tc := ⟨.hbm, 136, rfl⟩
abbrev main_call0_v67 : Ref sig .tc := ⟨.hbm, 137, rfl⟩
abbrev main_call0_v68 : Ref sig .tc := ⟨.hbm, 138, rfl⟩
abbrev main_call0_v69 : Ref sig .tc := ⟨.hbm, 139, rfl⟩
abbrev main_v0_0 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x10 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x10 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S512x512 : S_.BroadcastsInDim S512x512 (![] : Fin 0 → Fin S512x512.rank)
  reducesTo_S512x512_S_d0_1 : S512x512.ReducesTo [0, 1] S_
  h_S_ : 0 < S_.numel
  bcast_S_S512x10 : S_.BroadcastsInDim S512x10 (![] : Fin 0 → Fin S512x10.rank)
  reducesTo_S512x10_S_d0_1 : S512x10.ReducesTo [0, 1] S_
  bitsLt_bf16_f32 : FTy.bits .bf16 < FTy.bits .f32
  inb_S4096x512_S4096x512_0_0 : ∀ a, (![0, 0] : Fin 2 → Nat) a + S4096x512.size a ≤ S4096x512.size a
  h_S4096x512 : 0 < S4096x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x10_S512x10_0_0 : ∀ a, (![0, 0] : Fin 2 → Nat) a + S512x10.size a ≤ S512x10.size a
  h_S512x10 : 0 < S512x10.numel
  shapeCasts_S512x10_S512x10 : S512x10.ShapeCasts S512x10
  inb_S4096x10_S4096x10_0_0 : ∀ a, (![0, 0] : Fin 2 → Nat) a + S4096x10.size a ≤ S4096x10.size a
  h_S4096x10 : 0 < S4096x10.numel
  dot_S4096x512_S512x512_S4096x512_1_0_0_1_n_n_wf : DotDims.WF S4096x512 S512x512 S4096x512 [1] [0] [0] [1] [] []
  dot_S4096x512_S512x10_S4096x10_1_0_0_1_n_n_wf : DotDims.WF S4096x512 S512x10 S4096x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S65536x512.size a
  hwx0_0 : ∀ i : grid0.Coords, EltTy.bits .f32 = 32 ∨ (Rect.block (s := S65536x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x10.size a ≤ S512x10.size a
  hwx0_3 : ∀ i : grid0.Coords, EltTy.bits .bf16 = 32 ∨ (Rect.block (s := S512x10) S512x10.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x10.size a ≤ S65536x10.size a
  hwx0_4 : ∀ i : grid0.Coords, EltTy.bits .f32 = 32 ∨ (Rect.block (s := S65536x10) S4096x10.size (cc0_transform_4 i) (hinb0_4 i)).WholeWords (EltTy.packing .f32)

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x512_S512x10_S4096x10_1_0_0_1_n_n : DotDims S4096x512 S512x10 S4096x10 where
  lhsContracting := [1]
  rhsContracting := [0]
  lhsNonContracting := [0]
  rhsNonContracting := [1]
  lhsBatch := []
  rhsBatch := []
  wf := dot_S4096x512_S512x10_S4096x10_1_0_0_1_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v67) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v68) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v69) S512x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S4096x10.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S65536x512 : Shape := ⟨2, ![65536, 512]⟩
abbrev S512x512 : Shape := ⟨2, ![512, 512]⟩
abbrev S512x10 : Shape := ⟨2, ![512, 10]⟩
abbrev S_ : Shape := ⟨0, ![]⟩
abbrev S65536x10 : Shape := ⟨2, ![65536, 10]⟩

abbrev nBuf : Space → Nat
  | .hbm => 146
  | .vmem => 0
  | .smem => 0
  | _ => 0

abbrev hbmTy0_0 (i : Nat) : BufTy := match i % 128 with
  | 0 => ⟨S65536x512, .f32⟩
  | 1 => ⟨S512x512, .f32⟩
  | 2 => ⟨S512x512, .f32⟩
  | 3 => ⟨S512x512, .f32⟩
  | 4 => ⟨S512x512, .f32⟩
  | 5 => ⟨S512x512, .f32⟩
  | 6 => ⟨S512x512, .f32⟩
  | 7 => ⟨S512x10, .f32⟩
  | 8 => ⟨S512x10, .f32⟩
  | 9 => ⟨S512x10, .f32⟩
  | 10 => ⟨S_, .f32⟩
  | 11 => ⟨S512x512, .f32⟩
  | 12 => ⟨S512x512, .f32⟩
  | 13 => ⟨S512x512, .f32⟩
  | 14 => ⟨S512x512, .f32⟩
  | 15 => ⟨S512x512, .i1⟩
  | 16 => ⟨S512x512, .f32⟩
  | 17 => ⟨S512x512, .f32⟩
  | 18 => ⟨S512x512, .f32⟩
  | 19 => ⟨S512x512, .f32⟩
  | 20 => ⟨S512x512, .f32⟩
  | 21 => ⟨S512x512, .f32⟩
  | 22 => ⟨S512x512, .f32⟩
  | 23 => ⟨S512x512, .f32⟩
  | 24 => ⟨S_, .f32⟩
  | 25 => ⟨S512x512, .f32⟩
  | 26 => ⟨S512x512, .f32⟩
  | 27 => ⟨S512x512, .f32⟩
  | 28 => ⟨S512x512, .f32⟩
  | 29 => ⟨S65536x512, .f32⟩
  | 30 => ⟨S512x512, .f32⟩
  | 31 => ⟨S_, .f32⟩
  | 32 => ⟨S512x512, .f32⟩
  | 33 => ⟨S512x512, .f32⟩
  | 34 => ⟨S512x512, .f32⟩
  | 35 => ⟨S512x512, .f32⟩
  | 36 => ⟨S512x512, .f32⟩
  | 37 => ⟨S_, .f32⟩
  | 38 => ⟨S512x512, .f32⟩
  | 39 => ⟨S512x512, .f32⟩
  | 40 => ⟨S512x512, .f32⟩
  | 41 => ⟨S_, .f32⟩
  | 42 => ⟨S_, .f32⟩
  | 43 => ⟨S512x512, .f32⟩
  | 44 => ⟨S_, .f32⟩
  | 45 => ⟨S512x512, .f32⟩
  | 46 => ⟨S512x512, .f32⟩
  | 47 => ⟨S_, .f32⟩
  | 48 => ⟨S512x512, .f32⟩
  | 49 => ⟨S512x512, .f32⟩
  | 50 => ⟨S_, .f32⟩
  | 51 => ⟨S_, .f32⟩
  | 52 => ⟨S_, .f32⟩
  | 53 => ⟨S65536x512, .f32⟩
  | 54 => ⟨S65536x512, .f32⟩
  | 55 => ⟨S_, .f32⟩
  | 56 => ⟨S512x512, .f32⟩
  | 57 => ⟨S512x512, .f32⟩
  | 58 => ⟨S512x512, .f32⟩
  | 59 => ⟨S512x512, .f32⟩
  | 60 => ⟨S512x512, .i1⟩
  | 61 => ⟨S512x512, .f32⟩
  | 62 => ⟨S512x512, .f32⟩
  | 63 => ⟨S512x512, .f32⟩
  | 64 => ⟨S512x512, .f32⟩
  | 65 => ⟨S512x512, .f32⟩
  | 66 => ⟨S512x512, .f32⟩
  | 67 => ⟨S512x512, .f32⟩
  | 68 => ⟨S512x512, .f32⟩
  | 69 => ⟨S_, .f32⟩
  | 70 => ⟨S512x512, .f32⟩
  | 71 => ⟨S512x512, .f32⟩
  | 72 => ⟨S512x512, .f32⟩
  | 73 => ⟨S512x512, .f32⟩
  | 74 => ⟨S65536x512, .f32⟩
  | 75 => ⟨S512x512, .f32⟩
  | 76 => ⟨S_, .f32⟩
  | 77 => ⟨S512x512, .f32⟩
  | 78 => ⟨S512x512, .f32⟩
  | 79 => ⟨S512x512, .f32⟩
  | 80 => ⟨S512x512, .f32⟩
  | 81 => ⟨S512x512, .f32⟩
  | 82 => ⟨S_, .f32⟩
  | 83 => ⟨S512x512, .f32⟩
  | 84 => ⟨S512x512, .f32⟩
  | 85 => ⟨S512x512, .f32⟩
  | 86 => ⟨S_, .f32⟩
  | 87 => ⟨S_, .f32⟩
  | 88 => ⟨S512x512, .f32⟩
  | 89 => ⟨S_, .f32⟩
  | 90 => ⟨S512x512, .f32⟩
  | 91 => ⟨S512x512, .f32⟩
  | 92 => ⟨S_, .f32⟩
  | 93 => ⟨S512x512, .f32⟩
  | 94 => ⟨S512x512, .f32⟩
  | 95 => ⟨S_, .f32⟩
  | 96 => ⟨S_, .f32⟩
  | 97 => ⟨S_, .f32⟩
  | 98 => ⟨S65536x512, .f32⟩
  | 99 => ⟨S65536x512, .f32⟩
  | 100 => ⟨S_, .f32⟩
  | 101 => ⟨S512x10, .f32⟩
  | 102 => ⟨S512x10, .f32⟩
  | 103 => ⟨S512x10, .f32⟩
  | 104 => ⟨S512x10, .f32⟩
  | 105 => ⟨S512x10, .i1⟩
  | 106 => ⟨S512x10, .f32⟩
  | 107 => ⟨S512x10, .f32⟩
  | 108 => ⟨S512x10, .f32⟩
  | 109 => ⟨S512x10, .f32⟩
  | 110 => ⟨S512x10, .f32⟩
  | 111 => ⟨S512x10, .f32⟩
  | 112 => ⟨S512x10, .f32⟩
  | 113 => ⟨S512x10, .f32⟩
  | 114 => ⟨S_, .f32⟩
  | 115 => ⟨S512x10, .f32⟩
  | 116 => ⟨S512x10, .f32⟩
  | 117 => ⟨S512x10, .f32⟩
  | 118 => ⟨S512x10, .f32⟩
  | 119 => ⟨S65536x10, .f32⟩
  | 120 => ⟨S512x10, .f32⟩
  | 121 => ⟨S_, .f32⟩
  | 122 => ⟨S512x10, .f32⟩
  | 123 => ⟨S512x10, .f32⟩
  | 124 => ⟨S512x10, .f32⟩
  | 125 => ⟨S512x10, .f32⟩
  | 126 => ⟨S512x10, .f32⟩
  | 127 => ⟨S_, .f32⟩
  | _ => ⟨S65536x512, .f32⟩

abbrev hbmTy0_1 (i : Nat) : BufTy := match i % 128 with
  | 0 => ⟨S512x10, .f32⟩
  | 1 => ⟨S512x10, .f32⟩
  | 2 => ⟨S512x10, .f32⟩
  | 3 => ⟨S_, .f32⟩
  | 4 => ⟨S_, .f32⟩
  | 5 => ⟨S512x10, .f32⟩
  | 6 => ⟨S_, .f32⟩
  | 7 => ⟨S512x10, .f32⟩
  | 8 => ⟨S512x10, .f32⟩
  | 9 => ⟨S_, .f32⟩
  | 10 => ⟨S512x10, .f32⟩
  | 11 => ⟨S512x10, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | _ => ⟨S65536x512, .f32⟩

abbrev hbmTy (i : Nat) : BufTy := match i / 128 with
  | 0 => hbmTy0_0 i
  | 1 => hbmTy0_1 i
  | _ => ⟨S65536x512, .f32⟩

abbrev bufTy : (tb : Table) → Fin (tcTables nBuf tb) → BufTy
  | .hbm, ⟨i, _⟩ => hbmTy i
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_v0 : Ref sig .tc := ⟨.hbm, 23, rfl⟩
abbrev main_cst : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst_0 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst_1 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_cst_2 : Ref sig .tc := ⟨.hbm, 41, rfl⟩
abbrev main_v15 : Ref sig .tc := ⟨.hbm, 42, rfl⟩
abbrev main_v16 : Ref sig .tc := ⟨.hbm, 43, rfl⟩
abbrev main_cst_3 : Ref sig .tc := ⟨.hbm, 44, rfl⟩
abbrev main_v17 : Ref sig .tc := ⟨.hbm, 45, rfl⟩
abbrev main_v18 : Ref sig .tc := ⟨.hbm, 46, rfl⟩
abbrev main_cst_4 : Ref sig .tc := ⟨.hbm, 47, rfl⟩
abbrev main_v19 : Ref sig .tc := ⟨.hbm, 48, rfl⟩
abbrev main_v20 : Ref sig .tc := ⟨.hbm, 49, rfl⟩
abbrev main_cst_5 : Ref sig .tc := ⟨.hbm, 50, rfl⟩
abbrev main_v21 : Ref sig .tc := ⟨.hbm, 51, rfl⟩
abbrev main_call1_cst : Ref sig .tc := ⟨.hbm, 52, rfl⟩
abbrev main_call1_v0 : Ref sig .tc := ⟨.hbm, 53, rfl⟩
abbrev main_v22 : Ref sig .tc := ⟨.hbm, 54, rfl⟩
abbrev main_call2_cst : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_v23 : Ref sig .tc := ⟨.hbm, 68, rfl⟩
abbrev main_cst_6 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_cst_7 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_cst_8 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_cst_9 : Ref sig .tc := ⟨.hbm, 86, rfl⟩
abbrev main_v38 : Ref sig .tc := ⟨.hbm, 87, rfl⟩
abbrev main_v39 : Ref sig .tc := ⟨.hbm, 88, rfl⟩
abbrev main_cst_10 : Ref sig .tc := ⟨.hbm, 89, rfl⟩
abbrev main_v40 : Ref sig .tc := ⟨.hbm, 90, rfl⟩
abbrev main_v41 : Ref sig .tc := ⟨.hbm, 91, rfl⟩
abbrev main_cst_11 : Ref sig .tc := ⟨.hbm, 92, rfl⟩
abbrev main_v42 : Ref sig .tc := ⟨.hbm, 93, rfl⟩
abbrev main_v43 : Ref sig .tc := ⟨.hbm, 94, rfl⟩
abbrev main_cst_12 : Ref sig .tc := ⟨.hbm, 95, rfl⟩
abbrev main_v44 : Ref sig .tc := ⟨.hbm, 96, rfl⟩
abbrev main_call3_cst : Ref sig .tc := ⟨.hbm, 97, rfl⟩
abbrev main_call3_v0 : Ref sig .tc := ⟨.hbm, 98, rfl⟩
abbrev main_v45 : Ref sig .tc := ⟨.hbm, 99, rfl⟩
abbrev main_call4_cst : Ref sig .tc := ⟨.hbm, 100, rfl⟩
abbrev main_call4_v0 : Ref sig .tc := ⟨.hbm, 101, rfl⟩
abbrev main_call4_v1 : Ref sig .tc := ⟨.hbm, 102, rfl⟩
abbrev main_call4_v2 : Ref sig .tc := ⟨.hbm, 103, rfl⟩
abbrev main_call4_v3 : Ref sig .tc := ⟨.hbm, 104, rfl⟩
abbrev main_call4_v4 : Ref sig .tc := ⟨.hbm, 105, rfl⟩
abbrev main_call4_v5 : Ref sig .tc := ⟨.hbm, 106, rfl⟩
abbrev main_call4_v6 : Ref sig .tc := ⟨.hbm, 107, rfl⟩
abbrev main_call4_v7 : Ref sig .tc := ⟨.hbm, 108, rfl⟩
abbrev main_call4_v8 : Ref sig .tc := ⟨.hbm, 109, rfl⟩
abbrev main_call4_v9 : Ref sig .tc := ⟨.hbm, 110, rfl⟩
abbrev main_call4_v10 : Ref sig .tc := ⟨.hbm, 111, rfl⟩
abbrev main_call4_v11 : Ref sig .tc := ⟨.hbm, 112, rfl⟩
abbrev main_v46 : Ref sig .tc := ⟨.hbm, 113, rfl⟩
abbrev main_cst_13 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_cst_14 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_v57 : Ref sig .tc := ⟨.hbm, 126, rfl⟩
abbrev main_cst_15 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_cst_16 : Ref sig .tc := ⟨.hbm, 131, rfl⟩
abbrev main_v61 : Ref sig .tc := ⟨.hbm, 132, rfl⟩
abbrev main_v62 : Ref sig .tc := ⟨.hbm, 133, rfl⟩
abbrev main_cst_17 : Ref sig .tc := ⟨.hbm, 134, rfl⟩
abbrev main_v63 : Ref sig .tc := ⟨.hbm, 135, rfl⟩
abbrev main_v64 : Ref sig .tc := ⟨.hbm, 136, rfl⟩
abbrev main_cst_18 : Ref sig .tc := ⟨.hbm, 137, rfl⟩
abbrev main_v65 : Ref sig .tc := ⟨.hbm, 138, rfl⟩
abbrev main_v66 : Ref sig .tc := ⟨.hbm, 139, rfl⟩
abbrev main_cst_19 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  reducesTo_S512x512_S_d0_1 : S512x512.ReducesTo [0, 1] S_
  h_S_ : 0 < S_.numel
  bcast_S_S65536x512 : S_.BroadcastsInDim S65536x512 (![] : Fin 0 → Fin S65536x512.rank)
  bcast_S_S512x10 : S_.BroadcastsInDim S512x10 (![] : Fin 0 → Fin S512x10.rank)
  reducesTo_S512x10_S_d0_1 : S512x10.ReducesTo [0, 1] S_
  dot_S65536x512_S512x512_S65536x512_1_0_0_1_n_n_wf : DotDims.WF S65536x512 S512x512 S65536x512 [1] [0] [0] [1] [] []
  dot_S65536x512_S512x10_S65536x10_1_0_0_1_n_n_wf : DotDims.WF S65536x512 S512x10 S65536x10 [1] [0] [0] [1] [] []

variable [Facts₀]

def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf
def dot_S65536x512_S512x10_S65536x10_1_0_0_1_n_n : DotDims S65536x512 S512x10 S65536x10 where
  lhsContracting := [1]
  rhsContracting := [0]
  lhsNonContracting := [0]
  rhsNonContracting := [1]
  lhsBatch := []
  rhsBatch := []
  wf := dot_S65536x512_S512x10_S65536x10_1_0_0_1_n_n_wf

class Facts : Prop extends Facts₀ where

variable [Facts]
-- ==== Proof.KernelHost.lean ====
/-
  What the kernel's host operations leave before the region is entered.

  Before the pallas_call the kernel's @main samples the three weight matrices, Wₖ = μₖ + (10⁻⁶ + softplus pₖ) · εₖ,
  and changes their float format for the call. These are the same host operations, on the same arguments and
  with the same literals, as the reference's; over the extended reals the change of format is the identity. So
  the three arrays the weight windows stage are the reference's sampled weights, as terms of the arguments.
-/
import proofs.«133563_j46471546143005_2_alg».proof.Proof.Gen.KernelIdeal.Frame
import proofs.«133563_j46471546143005_2_alg».proof.Proof.Gen.ReferenceIdeal.Read
import Idealize.ShloMosaic.Lib.StableHlo.Run

noncomputable section

open Idealize.ShloMosaic Idealize.ShloMosaic.TcCoe Idealize.SL.Sem Idealize.ShloMosaic.StableHlo

namespace Cert.KernelIdeal.Host

open Cert.KernelIdeal Cert.KernelIdeal.Gen

variable (m : (ℓ : Loc nD τ sig) → Buf (Elt Ideal) ℓ)

set_option maxRecDepth 8192 in
set_option maxHeartbeats 20000000 in
/-- The first layer's weights as the region finds them: μ₁ + (10⁻⁶ + softplus p₁) · ε₁. -/
theorem V_w1 (c : Dev nD) :
    (V m c main_call0_v67 : S512x512.Idx → EReal)
      = Cert.ReferenceIdeal.Read.val_main_v4 (F := Ideal) (m ((c : Thread nD τ).loc main_arg1))
          (m ((c : Thread nD τ).loc main_arg2)) (m ((c : Thread nD τ).loc main_arg3)) := by
  dsimp only [Gen.V, Gen.hostOps0]; after_results_simp <;> rfl

set_option maxRecDepth 8192 in
set_option maxHeartbeats 20000000 in
/-- The second layer's weights as the region finds them. -/
theorem V_w2 (c : Dev nD) :
    (V m c main_call0_v68 : S512x512.Idx → EReal)
      = Cert.ReferenceIdeal.Read.val_main_v27 (F := Ideal) (m ((c : Thread nD τ).loc main_arg4))
          (m ((c : Thread nD τ).loc main_arg5)) (m ((c : Thread nD τ).loc main_arg6)) := by
  dsimp only [Gen.V, Gen.hostOps0]; after_results_simp <;> rfl

set_option maxRecDepth 8192 in
set_option maxHeartbeats 20000000 in
/-- The third layer's weights as the region finds them. -/
theorem V_w3 (c : Dev nD) :
    (V m c main_call0_v69 : S512x10.Idx → EReal)
      = Cert.ReferenceIdeal.Read.val_main_v50 (F := Ideal) (m ((c : Thread nD τ).loc main_arg7))
          (m ((c : Thread nD τ).loc main_arg8)) (m ((c : Thread nD τ).loc main_arg9)) := by
  dsimp only [Gen.V, Gen.hostOps0]; after_results_simp <;> rfl

end Cert.KernelIdeal.Host

end
-- ==== Proof.KernelTotals.lean ====
/-
  The kernel's two scalar results.

  Before the pallas_call the kernel's @main computes, from the sampled weights Wₖ = μₖ + σₖ · εₖ with
  σₖ = 10⁻⁶ + softplus pₖ, the variational log-likelihood Σ (c − log σₖ − ½ ((Wₖ − μₖ) / σₖ)²) and the prior
  log-likelihood Σ (c − ½ Wₖ²) of each layer, c = −½ log 2π as an f32 literal, and adds the three layers' values,
  the first two first. The reference does the same host operations on the same arguments with the same
  literals, in the same order: the two totals are the same terms of the arguments, and nothing is opened.
-/
import proofs.«133563_j46471546143005_2_alg».proof.Proof.Gen.KernelIdeal.Frame
import proofs.«133563_j46471546143005_2_alg».proof.Proof.Gen.ReferenceIdeal.Read
import Idealize.ShloMosaic.Lib.StableHlo.Run

noncomputable section

open Idealize.ShloMosaic Idealize.ShloMosaic.TcCoe Idealize.SL.Sem Idealize.ShloMosaic.StableHlo

namespace Cert.KernelIdeal.Totals

open Cert.KernelIdeal Cert.KernelIdeal.Gen

variable (m : (ℓ : Loc nD τ sig) → Buf (Elt Ideal) ℓ)

set_option maxRecDepth 8192 in
set_option maxHeartbeats 40000000 in
/-- The total variational log-likelihood as the host operations leave it: the reference's, of the same arguments. -/
theorem V_lq (c : Dev nD) :
    (V m c main_v0_1 : S_.Idx → EReal)
      = Cert.ReferenceIdeal.Read.val_main_v69 (F := Ideal) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9)) := by
  dsimp only [Gen.V, Gen.hostOps0]; after_results_simp <;> rfl

set_option maxRecDepth 8192 in
set_option maxHeartbeats 40000000 in
/-- The total prior log-likelihood as the host operations leave it: the reference's, of the same arguments. -/
theorem V_lp (c : Dev nD) :
    (V m c main_v0_2 : S_.Idx → EReal)
      = Cert.ReferenceIdeal.Read.val_main_v71 (F := Ideal) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9)) := by
  dsimp only [Gen.V, Gen.hostOps0]; after_results_simp <;> rfl

end Cert.KernelIdeal.Totals

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.Net.lean ====
/-
  The three-layer perceptron as a function of its matrices, over the extended reals.

  A matrix is a function of a row and a column index. A layer multiplies on the right by a weight matrix,
  entry (i, j) of the product being the sum over k of A (i, k) · W (k, j); between layers every entry is
  replaced by its maximum with zero. The network is layer, clamp, layer, clamp, layer.

  Every step computes row i of its result from row i of its left operand alone. So the network applied to
  a selection of rows of X (for instance a strip of consecutive rows) is the same selection of rows of the
  network applied to all of X. No finiteness is involved: nothing is distributed, cancelled or regrouped.
-/
import Idealize.ShloMosaic.PureOps.Ideal

noncomputable section

open scoped BigOperators

namespace Cert.Mlp

variable {R R' K N D H₁ H₂ O : Nat}

/-- The product of an R×K matrix with a K×N matrix. -/
def prod (A : Fin R → Fin K → EReal) (W : Fin K → Fin N → EReal) : Fin R → Fin N → EReal :=
  fun i j => ∑ k : Fin K, A i k * W k j

/-- Every entry clamped below at zero. -/
def relu (A : Fin R → Fin N → EReal) : Fin R → Fin N → EReal :=
  fun i j => max (A i j) 0

/-- The network: X · W₁, clamped, · W₂, clamped, · W₃. -/
def net (X : Fin R → Fin D → EReal) (W₁ : Fin D → Fin H₁ → EReal) (W₂ : Fin H₁ → Fin H₂ → EReal)
    (W₃ : Fin H₂ → Fin O → EReal) : Fin R → Fin O → EReal :=
  prod (relu (prod (relu (prod X W₁)) W₂)) W₃

/-- The network's entry (i, j), written out. -/
theorem net_apply (X : Fin R → Fin D → EReal) (W₁ : Fin D → Fin H₁ → EReal) (W₂ : Fin H₁ → Fin H₂ → EReal)
    (W₃ : Fin H₂ → Fin O → EReal) (i : Fin R) (j : Fin O) :
    net X W₁ W₂ W₃ i j
      = ∑ k₃ : Fin H₂, max (∑ k₂ : Fin H₁, max (∑ k₁ : Fin D, X i k₁ * W₁ k₁ k₂) 0 * W₂ k₂ k₃) 0 * W₃ k₃ j := rfl

/-- Row p of the network applied to the rows f 0, f 1, … of X is row f p of the network applied to X. -/
theorem net_rows (f : Fin R' → Fin R) (X : Fin R → Fin D → EReal) (W₁ : Fin D → Fin H₁ → EReal)
    (W₂ : Fin H₁ → Fin H₂ → EReal) (W₃ : Fin H₂ → Fin O → EReal) (p : Fin R') :
    net (fun p' => X (f p')) W₁ W₂ W₃ p = net X W₁ W₂ W₃ (f p) := rfl

end Cert.Mlp

end
-- ==== Proof.KernelBlock.lean ====
/-
  What the kernel's body computes from one block of rows, entry by entry.

  The body loads a block of 4096 rows of x and the three weight matrices, and stores
  max (max (x · W₁) 0 · W₂) 0 · W₃, each product accumulated into a zero matrix. Over the extended reals
  a change of float format is the identity and a product into the zero matrix is the plain sum over the
  contracted index, so entry (p, q) of what is stored is entry (p, q) of the three-layer network applied to
  the block.
-/
import proofs.«133563_j46471546143005_2_alg».proof.Proof.Gen.KernelIdeal.Skeleton
import proofs.«133563_j46471546143005_2_alg».proof.Proof.LibPlainDot
import proofs.«133563_j46471546143005_2_alg».proof.Proof.Net
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Block

open Cert.KernelIdeal Cert.KernelIdeal.Gen

/-- The clamp as the body spells it — the maximum with a splat of the zero word, then a change of format —
    read at an index: the maximum of the entry with zero. -/
theorem clamp_apply {s : Shape} (v : FVec Ideal s .f32) (i : s.Idx) :
    truncf .bf16 (maximumf v (broadcast s (Scalar.ofBits (F := Ideal) .f32 0x00000000#32))) bitsLt_bf16_f32 i
      = max (v i) 0 := by
  show max (v i) (Ideal.ofBits .f32 0x00000000#32) = max (v i) 0
  rw [Ideal.ofBits_zero_f32]

/-- Entry (p, q) of what the body stores is entry (p, q) of the network applied to the loaded block of x and
    the loaded weights. -/
theorem stored_apply (x0 : Vec Ideal S4096x512 .f32) (w1 w2 : Vec Ideal S512x512 .bf16) (w3 : Vec Ideal S512x10 .bf16)
    (p : Fin 4096) (q : Fin 10) :
    k0_pay1 (F := Ideal) x0 w1 w2 w3 (ix2 p q)
      = Cert.Mlp.net (fun i k => x0 (ix2 i k)) (fun k j => w1 (ix2 k j)) (fun k j => w2 (ix2 k j))
          (fun k j => w3 (ix2 k j)) p q := by
  unfold k0_pay1
  simp only [shapeCast_self]
  rw [Cert.Mlp.net_apply]
  refine (PlainDot.matmul_zero_apply (M := 4096) (K := 512) (N := 10) (φ₁ := .bf16) (φ₂ := .bf16) none _ _ p q).trans
    (Finset.sum_congr rfl fun k3 _ => ?_)
  refine congrArg (· * w3 (ix2 k3 q)) ?_
  refine (clamp_apply _ _).trans (congrArg (max · 0) ?_)
  refine (PlainDot.matmul_zero_apply (M := 4096) (K := 512) (N := 512) (φ₁ := .bf16) (φ₂ := .bf16) none _ _ p k3).trans
    (Finset.sum_congr rfl fun k2 _ => ?_)
  refine congrArg (· * w2 (ix2 k2 k3)) ?_
  refine (clamp_apply _ _).trans (congrArg (max · 0) ?_)
  exact PlainDot.matmul_zero_apply (M := 4096) (K := 512) (N := 512) (φ₁ := .bf16) (φ₂ := .bf16) none _ _ p k2

end Cert.KernelIdeal.Block

end
-- ==== Proof.RefEntry.lean ====
/-
  The reference's first result, entry by entry.

  The reference computes y = max (max (x · W₁) 0 · W₂) 0 · W₃ by three whole-array products on the host,
  with Wₖ = μₖ + (10⁻⁶ + softplus pₖ) · εₖ. Over the extended reals a host product's entry (i, j) is the plain
  sum over the contracted index, so entry (r, q) of y is entry (r, q) of the three-layer network applied to x
  and the three sampled weight matrices. The weights themselves are not opened here: the kernel's side
  computes them by the same host operations.
-/
import proofs.«133563_j46471546143005_2_alg».proof.Proof.Gen.ReferenceIdeal.Read
import proofs.«133563_j46471546143005_2_alg».proof.Proof.LibPlainDot
import proofs.«133563_j46471546143005_2_alg».proof.Proof.Net
import Idealize.ShloMosaic.Lib.ValueIdx
import Idealize.ShloMosaic.PureOps.Ideal.Laws

noncomputable section

open scoped BigOperators
open Idealize.ShloMosaic Idealize.ShloMosaic.ValueIdx

namespace Cert.ReferenceIdeal.Entry

open Cert.ReferenceIdeal Cert.ReferenceIdeal.Read

/-- The first clamp — the maximum with a splat of the zero word — read at an index. -/
theorem clamp1_apply (v : FVec Ideal S65536x512 .f32) (i : S65536x512.Idx) :
    Idealize.ShloMosaic.maximumf v (val_main_call1_v0 (F := Ideal)) i = max (v i) 0 := by
  show max (v i) (val_main_call1_v0 (F := Ideal) i) = max (v i) 0
  rw [val_main_call1_v0_apply, val_main_call1_cst_apply, Ideal.ofBits_def, Ideal.ofBits_zero_f32]

/-- The second clamp, read at an index. -/
theorem clamp2_apply (v : FVec Ideal S65536x512 .f32) (i : S65536x512.Idx) :
    Idealize.ShloMosaic.maximumf v (val_main_call3_v0 (F := Ideal)) i = max (v i) 0 := by
  show max (v i) (val_main_call3_v0 (F := Ideal) i) = max (v i) 0
  rw [val_main_call3_v0_apply, val_main_call3_cst_apply, Ideal.ofBits_def, Ideal.ofBits_zero_f32]

/-- Entry (r, q) of the reference's y is entry (r, q) of the network applied to x and the sampled weights. -/
theorem y_apply (x0 : (⟨S65536x512, .f32⟩ : BufTy).Contents (Elt Ideal))
    (x1 x2 x3 x4 x5 x6 : (⟨S512x512, .f32⟩ : BufTy).Contents (Elt Ideal))
    (x7 x8 x9 : (⟨S512x10, .f32⟩ : BufTy).Contents (Elt Ideal)) (r : Fin 65536) (q : Fin 10) :
    val_main_v51 (F := Ideal) x0 x1 x2 x3 x4 x5 x6 x7 x8 x9 (ix2 r q)
      = Cert.Mlp.net (fun i k => x0 (ix2 i k)) (fun k j => val_main_v4 (F := Ideal) x1 x2 x3 (ix2 k j))
          (fun k j => val_main_v27 (F := Ideal) x4 x5 x6 (ix2 k j))
          (fun k j => val_main_v50 (F := Ideal) x7 x8 x9 (ix2 k j)) r q := by
  rw [Cert.Mlp.net_apply]
  unfold val_main_v51
  refine (PlainDot.dotGeneral_apply (M := 65536) (K := 512) (N := 10) none .single _ _ r q).trans
    (Finset.sum_congr rfl fun k3 _ => ?_)
  refine congrArg (· * val_main_v50 (F := Ideal) x7 x8 x9 (ix2 k3 q)) ?_
  unfold val_main_v45
  refine (clamp2_apply _ _).trans (congrArg (max · 0) ?_)
  unfold val_main_v28
  refine (PlainDot.dotGeneral_apply (M := 65536) (K := 512) (N := 512) none .single _ _ r k3).trans
    (Finset.sum_congr rfl fun k2 _ => ?_)
  refine congrArg (· * val_main_v27 (F := Ideal) x4 x5 x6 (ix2 k2 k3)) ?_
  unfold val_main_v22
  refine (clamp1_apply _ _).trans (congrArg (max · 0) ?_)
  unfold val_main_v5
  exact PlainDot.dotGeneral_apply (M := 65536) (K := 512) (N := 512) none .single _ _ r k2

end Cert.ReferenceIdeal.Entry

end
-- ==== Proof.Bridge.lean ====
/-
  One block's stored entry is the reference's entry.

  If a block x0 holds the rows f 0, f 1, … of x, and the loaded weights are the reference's sampled weights,
  then entry (p, q) of what the kernel's body stores is entry (f p, q) of the reference's y: both are the
  three-layer network, which computes each row of its result from the same row of x alone.
-/
import proofs.«133563_j46471546143005_2_alg».proof.Proof.KernelBlock
import proofs.«133563_j46471546143005_2_alg».proof.Proof.RefEntry

noncomputable section

open scoped BigOperators
open Idealize.ShloMosaic Idealize.ShloMosaic.ValueIdx

namespace Cert.Bridge

open Cert.ReferenceIdeal.Read

/-- Entry (p, q) of the stored block is entry (f p, q) of the reference's y, when the block of x is the rows
    f 0, f 1, … of x and the weights agree entry by entry. -/
theorem stored_eq_y (x0 : Vec Ideal Cert.KernelIdeal.S4096x512 .f32) (w1 w2 : Vec Ideal Cert.KernelIdeal.S512x512 .bf16)
    (w3 : Vec Ideal Cert.KernelIdeal.S512x10 .bf16)
    (X : (⟨Cert.ReferenceIdeal.S65536x512, .f32⟩ : BufTy).Contents (Elt Ideal))
    (x1 x2 x3 x4 x5 x6 : (⟨Cert.ReferenceIdeal.S512x512, .f32⟩ : BufTy).Contents (Elt Ideal))
    (x7 x8 x9 : (⟨Cert.ReferenceIdeal.S512x10, .f32⟩ : BufTy).Contents (Elt Ideal))
    (f : Fin 4096 → Fin 65536)
    (hx : ∀ (i : Fin 4096) (k : Fin 512), x0 (ix2 i k) = X (ix2 (f i) k))
    (h1 : ∀ k j : Fin 512, w1 (ix2 k j) = val_main_v4 (F := Ideal) x1 x2 x3 (ix2 k j))
    (h2 : ∀ k j : Fin 512, w2 (ix2 k j) = val_main_v27 (F := Ideal) x4 x5 x6 (ix2 k j))
    (h3 : ∀ (k : Fin 512) (j : Fin 10), w3 (ix2 k j) = val_main_v50 (F := Ideal) x7 x8 x9 (ix2 k j))
    (p : Fin 4096) (q : Fin 10) :
    Cert.KernelIdeal.Gen.k0_pay1 (F := Ideal) x0 w1 w2 w3 (ix2 p q)
      = val_main_v51 (F := Ideal) X x1 x2 x3 x4 x5 x6 x7 x8 x9 (ix2 (f p) q) := by
  rw [Cert.KernelIdeal.Block.stored_apply, Cert.ReferenceIdeal.Entry.y_apply]
  have eX : (fun (i : Fin 4096) (k : Fin 512) => x0 (ix2 i k)) = fun i k => X (ix2 (f i) k) :=
    funext fun i => funext fun k => hx i k
  have e1 : (fun (k j : Fin 512) => w1 (ix2 k j)) = fun k j => val_main_v4 (F := Ideal) x1 x2 x3 (ix2 k j) :=
    funext fun k => funext fun j => h1 k j
  have e2 : (fun (k j : Fin 512) => w2 (ix2 k j)) = fun k j => val_main_v27 (F := Ideal) x4 x5 x6 (ix2 k j) :=
    funext fun k => funext fun j => h2 k j
  have e3 : (fun (k : Fin 512) (j : Fin 10) => w3 (ix2 k j)) = fun k j => val_main_v50 (F := Ideal) x7 x8 x9 (ix2 k j) :=
    funext fun k => funext fun j => h3 k j
  rw [eX, e1, e2, e3]
  exact congrFun (Cert.Mlp.net_rows f (fun (r : Fin 65536) (k : Fin 512) => X (ix2 r k))
    (fun (k j : Fin 512) => val_main_v4 (F := Ideal) x1 x2 x3 (ix2 k j))
    (fun (k j : Fin 512) => val_main_v27 (F := Ideal) x4 x5 x6 (ix2 k j))
    (fun (k : Fin 512) (j : Fin 10) => val_main_v50 (F := Ideal) x7 x8 x9 (ix2 k j)) p) q

end Cert.Bridge

end
-- ==== Proof.KernelArray.lean ====
/-
  The kernel's three results as functions of the arguments.

  The pallas_call runs over 16 grid points. At point t the window on x holds the rows 4096 t … 4096 t + 4095,
  each weight window holds its whole matrix, and the output window's block is the rows 4096 t … 4096 t + 4095
  of the result (all 10 columns). What point t writes back is therefore that strip of rows of the reference's
  y; the 16 strips cover the result, so the result array ends holding y. The two scalar results are written by
  host operations before the call, and the call leaves them alone.
-/
import proofs.«133563_j46471546143005_2_alg».proof.Proof.Gen.KernelIdeal.Value
import proofs.«133563_j46471546143005_2_alg».proof.Proof.KernelHost
import proofs.«133563_j46471546143005_2_alg».proof.Proof.KernelTotals
import proofs.«133563_j46471546143005_2_alg».proof.Proof.Bridge
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Value

variable (m : (ℓ : Loc nD τ sig) → Buf (Elt Ideal) ℓ) (ρ : Dev nD → PrngReg)

theorem hz : (![0, 0] : Fin 2 → Nat) = fun _ => 0 := funext fun a => by fin_cases a <;> rfl

/-- The block index maps, decided over the 16 points: the windows on x and on the result move down one block
    of rows per point; each weight window stays on its one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of point t's blocks is row 4096 t + p of the whole arrays. -/
def row (t : Fin cfg0.N) (p : Fin 4096) : Fin 65536 :=
  ⟨4096 * t.val + p.val, by have ht := t.isLt; have hp := p.isLt; have hN : cfg0.N = 16 := N_0; omega⟩

/-- The first result as a function of the arguments: the reference's y of the same arrays. -/
def Y (c : Dev nD) : Buf (Elt Ideal) ((c : Thread nD τ).loc main_v0_0) :=
  Cert.ReferenceIdeal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- The second result: the reference's total variational log-likelihood of the same arrays. -/
def LQ (c : Dev nD) : Buf (Elt Ideal) ((c : Thread nD τ).loc main_v0_1) :=
  Cert.ReferenceIdeal.Read.val_main_v69 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- The third result: the reference's total prior log-likelihood of the same arrays. -/
def LP (c : Dev nD) : Buf (Elt Ideal) ((c : Thread nD τ).loc main_v0_2) :=
  Cert.ReferenceIdeal.Read.val_main_v71 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- The block of x at point t, entry (p, k), is x at (4096 t + p, k). -/
theorem x_block (c : Dev nD) (t : Fin cfg0.N) (p : Fin 4096) (k : Fin 512) :
    (iblk m c 0 t : Vec Ideal S4096x512 .f32) (ix2 p k)
      = (m ((c : Thread nD τ).loc main_arg0) : S65536x512.Idx → EReal) (ix2 (row t p) k) := by
  obtain ⟨e0, e1, -⟩ := idx_facts t
  unfold iblk
  rw [View.read_apply]
  show V m c main_arg0 _ = _
  refine (congrFun (V_main_arg0 m c) _).trans (congrArg _ ?_)
  funext a
  apply Fin.ext
  match a with
  | ⟨0, _⟩ => show win0_0.index t (0 : Fin 2) * 4096 + 1 * p.val = 4096 * t.val + p.val; rw [e0]; omega
  | ⟨1, _⟩ => show win0_0.index t (1 : Fin 2) * 512 + 1 * k.val = k.val; rw [e1]; omega

/-- The first weight window's block at any point is the whole of the first layer's sampled weights. -/
theorem w1_block (c : Dev nD) (t : Fin cfg0.N) (k j : Fin 512) :
    (iblk m c 1 t : Vec Ideal S512x512 .bf16) (ix2 k j)
      = Cert.ReferenceIdeal.Read.val_main_v4 (F := Ideal) (m ((c : Thread nD τ).loc main_arg1)) (m ((c : Thread nD τ).loc main_arg2)) (m ((c : Thread nD τ).loc main_arg3)) (ix2 k j) := by
  obtain ⟨-, -, e0, e1, -⟩ := idx_facts t
  unfold iblk
  rw [View.read_apply]
  show V m c main_call0_v67 _ = _
  refine (congrFun (Cert.KernelIdeal.Host.V_w1 m c) _).trans (congrArg _ ?_)
  funext a
  apply Fin.ext
  match a with
  | ⟨0, _⟩ => show win0_1.index t (0 : Fin 2) * 512 + 1 * k.val = k.val; rw [e0]; omega
  | ⟨1, _⟩ => show win0_1.index t (1 : Fin 2) * 512 + 1 * j.val = j.val; rw [e1]; omega

/-- The second weight window's block at any point is the whole of the second layer's sampled weights. -/
theorem w2_block (c : Dev nD) (t : Fin cfg0.N) (k j : Fin 512) :
    (iblk m c 2 t : Vec Ideal S512x512 .bf16) (ix2 k j)
      = Cert.ReferenceIdeal.Read.val_main_v27 (F := Ideal) (m ((c : Thread nD τ).loc main_arg4)) (m ((c : Thread nD τ).loc main_arg5)) (m ((c : Thread nD τ).loc main_arg6)) (ix2 k j) := by
  obtain ⟨-, -, -, -, e0, e1, -⟩ := idx_facts t
  unfold iblk
  rw [View.read_apply]
  show V m c main_call0_v68 _ = _
  refine (congrFun (Cert.KernelIdeal.Host.V_w2 m c) _).trans (congrArg _ ?_)
  funext a
  apply Fin.ext
  match a with
  | ⟨0, _⟩ => show win0_2.index t (0 : Fin 2) * 512 + 1 * k.val = k.val; rw [e0]; omega
  | ⟨1, _⟩ => show win0_2.index t (1 : Fin 2) * 512 + 1 * j.val = j.val; rw [e1]; omega

/-- The third weight window's block at any point is the whole of the third layer's sampled weights. -/
theorem w3_block (c : Dev nD) (t : Fin cfg0.N) (k : Fin 512) (j : Fin 10) :
    (iblk m c 3 t : Vec Ideal S512x10 .bf16) (ix2 k j)
      = Cert.ReferenceIdeal.Read.val_main_v50 (F := Ideal) (m ((c : Thread nD τ).loc main_arg7)) (m ((c : Thread nD τ).loc main_arg8)) (m ((c : Thread nD τ).loc main_arg9)) (ix2 k j) := by
  obtain ⟨-, -, -, -, -, -, e0, e1, -⟩ := idx_facts t
  unfold iblk
  rw [View.read_apply]
  show V m c main_call0_v69 _ = _
  refine (congrFun (Cert.KernelIdeal.Host.V_w3 m c) _).trans (congrArg _ ?_)
  funext a
  apply Fin.ext
  match a with
  | ⟨0, _⟩ => show win0_3.index t (0 : Fin 2) * 512 + 1 * k.val = k.val; rw [e0]; omega
  | ⟨1, _⟩ => show win0_3.index t (1 : Fin 2) * 10 + 1 * j.val = j.val; rw [e1]; omega

/-- What point t writes back is the rows 4096 t … 4096 t + 4095 of y. -/
theorem flushed_eq (c : Dev nD) (t : Fin cfg0.N) :
    (dats m 0 c).flushed 4 t = ((cfg0.win 4).blk t).view.read (Elt Ideal) (Y m c) := by
  obtain ⟨-, -, -, -, -, -, -, -, e0, e1⟩ := idx_facts t
  rw [flushed4]
  unfold out0_4
  rw [View.canon_unit_zero hz]
  simp only [View.ld_unit_zero (S := S4096x512) hz, View.ld_unit_zero (S := S512x512) hz, View.ld_unit_zero (S := S512x10) hz]
  funext y
  obtain ⟨p, q, rfl⟩ : ∃ (p : Fin 4096) (q : Fin 10), y = ix2 p q := ⟨y 0, y 1, eq_ix2 y⟩
  have hemb : ((cfg0.win 4).blk t).view.emb (ix2 p q) = ix2 (row t p) q := by
    funext a
    apply Fin.ext
    match a with
    | ⟨0, _⟩ => show win0_4.index t (0 : Fin 2) * 4096 + 1 * p.val = 4096 * t.val + p.val; rw [e0]; omega
    | ⟨1, _⟩ => show win0_4.index t (1 : Fin 2) * 10 + 1 * q.val = q.val; rw [e1]; omega
  show k0_pay1 (iblk m c 0 t) (iblk m c 1 t) (iblk m c 2 t) (iblk m c 3 t) (ix2 p q)
    = Y m c (((cfg0.win 4).blk t).view.emb (ix2 p q))
  rw [hemb]
  exact Cert.Bridge.stored_eq_y _ _ _ _ _ _ _ _ _ _ _ _ _ _ (row t) (x_block m c t) (w1_block m c t) (w2_block m c t)
    (w3_block m c t) p q

/-- An index of the result is in point t's block iff each coordinate is in the block's range on its axis. -/
theorem mem_blk (t : Fin cfg0.N) (i : S65536x10.Idx) :
    i ∈ ((cfg0.win 4).blk t).view.set ↔ ∀ a : Fin 2, win0_4.index t a * S4096x10.size a ≤ (i a).val
      ∧ (i a).val < win0_4.index t a * S4096x10.size a + S4096x10.size a := by
  show i ∈ ((View.whole main_v0_0).slice (win0_4.rect t)).set ↔ _
  rw [View.set_slice_whole, Rect.mem_set_unit]
  exact Iff.rfl

/-- Every index of the result is in some point's block: row r is in the block of point r / 4096. -/
theorem cover (i : S65536x10.Idx) :
    ∃ t : Fin cfg0.N, (cfg0.win 4).flush t = true ∧ i ∈ ((cfg0.win 4).blk t).view.set := by
  have hi0 : (i 0).val < 65536 := (i 0).isLt
  have hi1 : (i 1).val < 10 := (i 1).isLt
  have hN : cfg0.N = 16 := N_0
  obtain ⟨t, ht⟩ : ∃ t : Fin cfg0.N, t.val = (i 0).val / 4096 := ⟨⟨(i 0).val / 4096, by omega⟩, rfl⟩
  obtain ⟨-, -, -, -, -, -, -, -, e0, e1⟩ := idx_facts t
  refine ⟨t, flush0_4 t, ?_⟩
  rw [mem_blk]
  intro a
  match a with
  | ⟨0, _⟩ =>
    show win0_4.index t (0 : Fin 2) * 4096 ≤ (i 0).val ∧ (i 0).val < win0_4.index t (0 : Fin 2) * 4096 + 4096
    rw [e0]; omega
  | ⟨1, _⟩ =>
    show win0_4.index t (1 : Fin 2) * 10 ≤ (i 1).val ∧ (i 1).val < win0_4.index t (1 : Fin 2) * 10 + 10
    rw [e1]; omega

/-- So the result array ends holding y. -/
theorem final (c : Dev nD) : (dats m 0 c).arrAt 4 cfg0.N = Y m c :=
  (dats m 0 c).arrAt_eq_of_cover 4 (Y m c) (fun t _ => flushed_eq m c t) cover

/-- The kernel's run, read: each result at its function of the arguments, the arguments unchanged. -/
theorem run : θ_run defs (onTc (τ := τ) (main (F := Ideal))) ⟨m, fun _ => 0, ρ⟩ fun r => ∀ c : Dev nD,
      r.2.mem ((c : Thread nD τ).loc main_v0_0) = Y m c
      ∧ r.2.mem ((c : Thread nD τ).loc main_v0_1) = LQ m c
      ∧ r.2.mem ((c : Thread nD τ).loc main_v0_2) = LP m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(post4 m r h c).trans (final m c),
      ((h c).2 main_v0_1 (Pipeline.mem_restRefs_of main_v0_1 (by decide) (by decide))).trans (Cert.KernelIdeal.Totals.V_lq m c),
      ((h c).2 main_v0_2 (Pipeline.mem_restRefs_of main_v0_2 (by decide) (by decide))).trans (Cert.KernelIdeal.Totals.V_lp m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c⟩)
    (run_main m ρ)

end Cert.KernelIdeal.Whole

end
-- ==== Proof.lean ====
/-
  The proof of `Cert.Claim`: a three-layer Bayesian perceptron, its matrix chain fused into one pallas_call over
  16 strips of 4096 rows, against the same network written with whole-array host products.

  Both programs sample Wₖ = μₖ + (10⁻⁶ + softplus pₖ) · εₖ and compute the two log-likelihood totals by the same
  host operations on the same arguments: those results are equal as terms. The first result is
  y = max (max (x · W₁) 0 · W₂) 0 · W₃. Over the extended reals a change of float format is the identity and a
  product — the kernel's into a zero accumulator, the host's — is the plain sum over the contracted index, so
  each row of y depends on the same row of x alone, and the kernel's 16 strips of rows are the reference's y,
  entry by entry. No law that needs finite entries is used, so the precondition is never opened.

  The frames are the generated ones (the reference's is its generated run with the results dropped); the
  idealization rewrote nothing, so there is nothing to preserve.
-/
import proofs.«133563_j46471546143005_2_alg».proof.Defs
import proofs.«133563_j46471546143005_2_alg».proof.Proof.Gen.Kernel
import proofs.«133563_j46471546143005_2_alg».proof.Proof.Gen.Kernel.Frame
import proofs.«133563_j46471546143005_2_alg».proof.Proof.Gen.KernelIdeal
import proofs.«133563_j46471546143005_2_alg».proof.Proof.Gen.KernelIdeal.Frame
import proofs.«133563_j46471546143005_2_alg».proof.Proof.Gen.KernelIdeal.Value
import proofs.«133563_j46471546143005_2_alg».proof.Proof.Gen.ReferenceIdeal
import proofs.«133563_j46471546143005_2_alg».proof.Proof.Gen.ReferenceIdeal.Run
import proofs.«133563_j46471546143005_2_alg».proof.Proof.Gen.ReferenceIdeal.Read
import proofs.«133563_j46471546143005_2_alg».proof.Proof.Gen.Pre_finite_inputs
import proofs.«133563_j46471546143005_2_alg».proof.Proof.KernelArray
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2) (Cert.ReferenceIdeal.Value.run (F := Ideal) m ρ)

/-- The ideal pass rewrote no operation: nothing to preserve. -/
theorem preserves : Cert.preserves_Kernel_KernelIdeal := trivial

set_option maxRecDepth 8192 in
/-- From memories that agree on the arguments, the kernel ends with its results at the reference's three stages
    of its own arguments, and the reference at the same stages of its arguments: the same arrays. -/
theorem algebraic : Cert.algebraic_KernelIdeal_ReferenceIdeal := by
  intro m ρ m' ρ' _ hagree
  refine ⟨fun c => Cert.KernelIdeal.Whole.Y m c, fun c => Cert.KernelIdeal.Whole.LQ m c,
    fun c => Cert.KernelIdeal.Whole.LP m c, Cert.KernelIdeal.Whole.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9⟩ := hagree c
  refine ⟨(h c).1.trans ?_, (h c).2.1.trans ?_, (h c).2.2.1.trans ?_, (h c).2.2.2⟩
  · rw [a0, a1, a2, a3, a4, a5, a6, a7, a8, a9]
    exact Cert.ReferenceIdeal.Read.val_main_v51_eq _ _ _ _ _ _ _ _ _ _
  · rw [Cert.ReferenceIdeal.Read.val_main_v69_eq, a1, a2, a3, a4, a5, a6, a7, a8, a9]
    rfl
  · rw [Cert.ReferenceIdeal.Read.val_main_v71_eq, a1, a2, a3, a4, a5, a6, a7, a8, a9]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
